-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run, with the result array named.

  The program is four pallas_calls among stretches of host operations: nine segments in all, each with the thread
  state it is entered from and the one it leaves (every unscoped buffer at the contents of that boundary, the
  generator register at some state, nothing owed). Launched from any memory with zero counters, the segments chain
  from the launch memory to the last boundary, so every weakly fair execution terminates and nothing faults; at the
  end the last thread state holds every unscoped buffer at the last boundary's contents, and reading it against the
  final memory gives the result array at the last boundary's contents of its buffer — the fold of the host
  stretches and of the four regions' write-backs over the launch memory — and each argument array as launched
  (no stretch and no region writes one). The segments, their thread states and the boundary contents are the
  generated module's definitions.
-/
import proofs.«126585_j22900765623076_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result array at the last boundary's contents of its
    buffer and the arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«126585_j22900765623076_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«126585_j22900765623076_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibBiasRelu.lean ====
/-
  A bias added along the last axis and the result clamped below at zero, read at an entry.

  `biasRelu a b` is the function `(r, k) ↦ max (a (r, k) + b k) 0` on the extended reals, for a matrix `a : [M, N]` and a
  vector `b : [N]` (the zero is kept as the float word `0x00000000` read at the ideal values, the same word on every
  side, so it is never evaluated). Two programs compute it:
  · a kernel body that casts the bias vector `[N]` to the row `[1, N]`, broadcasts the row over the `M` rows, adds,
    and takes `arith.maximumf` with a splat scalar zero (`kernel_apply`, read at `(p, q)`);
  · the host's `jnp` form, the bias vector placed as the one row of `[1, N]` and repeated over the rows by two
    `broadcast_in_dim`s, an add, and a `maximum` with a scalar zero broadcast to `[M, N]` (`host_eq`, as whole
    functions; for `N ≠ 1`, as the library's broadcast lemma asks which case it is).
  The host's bias broadcast is `Cert.Lib.DenseLayer.bias_apply` (this file imports that one, and through it the plain
  matrix product's file). Imports only the Idealize library besides.
-/
import proofs.«126585_j22900765623076_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.BiasRelu

open Idealize.ShloMosaic Idealize.ShloMosaic.ValueIdx

/-- `(r, k) ↦ max (a (r, k) + b k) 0` on the extended reals. -/
def biasRelu {M N : ℕ} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

theorem biasRelu_apply {M N : ℕ} (a : (⟨2, ![M, N]⟩ : Shape).Idx → EReal) (b : (⟨1, ![N]⟩ : Shape).Idx → EReal)
    (p : Fin M) (q : Fin N) :
    biasRelu a b (ix2 p q) = max (a (ix2 p q) + b (ix1 q)) (Ideal.ofBits .f32 0x00000000#32) := rfl

/-- A kernel's form read at `(p, q)`: the bias vector cast to a row, the row broadcast over the rows, an add, and the
    maximum with a splat zero. -/
theorem kernel_apply {M N : ℕ} (x0 : FVec Ideal ⟨2, ![M, N]⟩ .f32) (x1 : FVec Ideal ⟨1, ![N]⟩ .f32)
    (h0 : (⟨2, ![M, N]⟩ : Shape).ShapeCasts ⟨2, ![M, N]⟩) (h1 : (⟨1, ![N]⟩ : Shape).ShapeCasts ⟨2, ![1, N]⟩)
    (h2 : (⟨2, ![1, N]⟩ : Shape).Broadcasts ⟨2, ![M, N]⟩) (p : Fin M) (q : Fin N) :
    maximumf (addf (shapeCast ⟨2, ![M, N]⟩ x0 h0) (broadcastTo ⟨2, ![M, N]⟩ (shapeCast ⟨2, ![1, N]⟩ x1 h1) h2))
        (broadcast ⟨2, ![M, N]⟩ (Scalar.ofBits (F := Ideal) .f32 0x00000000#32)) (ix2 p q)
      = biasRelu x0 x1 (ix2 p q) := by
  rw [maximumf_apply, addf_apply, shapeCast_self, broadcastTo_1b_ab_apply, shapeCast_a_1a_apply, broadcast_apply]
  rfl

/-- The host's form, as a whole function: two `broadcast_in_dim`s of the bias, an add, and the maximum with a scalar
    zero broadcast to the matrix's shape. -/
theorem host_eq {M N : ℕ} (hN : N ≠ 1) (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu a b := by
  funext i
  obtain ⟨p, q, rfl⟩ : ∃ (p : Fin M) (q : Fin N), i = ix2 p q := ⟨i 0, i 1, eq_ix2 i⟩
  rw [maximumf_apply, addf_apply, Cert.Lib.DenseLayer.bias_apply hN,
    broadcastInDim_apply ![] h0 _ (ix2 p q) ix0 (fun a => a.elim0), constant_apply]
  rfl

end Cert.Lib.BiasRelu

end
-- ==== Proof.GcnSpec.lean ====
/-
  The graph convolution's host side, named: what both programs compute around their dense products.

  Both programs build, from the edge list `edge_index : [2, 1600000]` and the edge weights, the same arrays on the
  host: the sources and destinations with one loop edge per node appended (`srcOf`, `dstOf`), the weights with a
  one per loop edge (`ewOf`), the weighted in-degree by a scatter-add (`degOf`), its inverse square root where the
  degree is positive and zero elsewhere (`dinvOf`, through `posOf` and `dinvFrom`), and per edge the product
  `dinv[src] · w · dinv[dst]` (`normOf`, through `normFrom`); and they aggregate a feature matrix `h : [100000, 64]` along the edges the same way (`aggOf`): gather
  the rows at the sources (negative indices wrapped once, as jnp indexing does), scale each by the edge's norm,
  scatter-add into the rows at the destinations. These host operations are never opened here: the definitions below
  spell them exactly as both printed programs do, so that each program's term is these functions applied, and the
  certificate only has to compare what goes INTO them — the dense products and the bias-and-clamp steps.
  A layer is `biasRelu (aggOf (h · W) …) b`; the network is two layers (`gcn`).
-/
import proofs.«126585_j22900765623076_1_alg».proof.ReferenceIdeal
import proofs.«126585_j22900765623076_1_alg».proof.Proof.Gen.ReferenceIdeal
import proofs.«126585_j22900765623076_1_alg».proof.Proof.LibMatProd
import proofs.«126585_j22900765623076_1_alg».proof.Proof.LibBiasRelu

noncomputable section

namespace Cert.Gcn

open Idealize.ShloMosaic Cert.ReferenceIdeal Cert.ReferenceIdeal.Gen

variable {F : FTy → Type} [FloatOps F]

/-- The edges' sources, then every node once (its loop edge). -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destinations, then every node once. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' weights, then a one per loop edge. -/
def ewOf (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

/-- A list of node indices as a gather's or scatter's index column. -/
def colOf (v : (⟨S1700000, .i32⟩ : BufTy).Contents (Elt F)) : (⟨S1700000x1, .i32⟩ : BufTy).Contents (Elt F) :=
  broadcastInDim S1700000x1 ![0] bcast_S1700000_S1700000x1_0 v

/-- Negative indices wrapped once by the number of nodes, as an index column. -/
def wrapOf (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The weighted in-degree of every node. -/
def degOf (dst : (⟨S1700000, .i32⟩ : BufTy).Contents (Elt F)) (ewf : (⟨S1700000, .f32⟩ : BufTy).Contents (Elt F)) :
    (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) ewf

/-- Where the degree is positive. -/
def posOf (deg : (⟨S100000, .f32⟩ : BufTy).Contents (Elt F)) : (⟨S100000, .i1⟩ : BufTy).Contents (Elt F) :=
  cmpf .ogt deg (broadcastInDim S100000 ![] bcast_S_S100000 (constant S_ .f32 0x00000000#32))

/-- A choice, node by node, between a vector and a scalar spread over the nodes (jnp's `where` with a scalar branch). -/
def dinvFrom (pos : (⟨S100000, .i1⟩ : BufTy).Contents (Elt F)) (rs : (⟨S100000, .f32⟩ : BufTy).Contents (Elt F))
    (z : (⟨S_, .f32⟩ : BufTy).Contents (Elt F)) : (⟨S100000, .f32⟩ : BufTy).Contents (Elt F) :=
  select pos rs (broadcastInDim S100000 ![] bcast_S_S100000 (id z))

/-- The inverse square root of the degree where it is positive, zero elsewhere. -/
def dinvOf (deg : (⟨S100000, .f32⟩ : BufTy).Contents (Elt F)) : (⟨S100000, .f32⟩ : BufTy).Contents (Elt F) :=
  dinvFrom (posOf deg) (Host.rsqrt deg) (constant S_ .f32 0x00000000#32)

/-- Per edge, `dinv[src] · w · dinv[dst]`, from a given `dinv`. -/
def normFrom (dinv : (⟨S100000, .f32⟩ : BufTy).Contents (Elt F)) (src dst : (⟨S1700000, .i32⟩ : BufTy).Contents (Elt F))
    (ewf : (⟨S1700000, .f32⟩ : BufTy).Contents (Elt F)) : (⟨S1700000, .f32⟩ : BufTy).Contents (Elt F) :=
  mulf (mulf (Host.gather gather_S100000_S1700000x1_S1700000_n_0_n_n_0_1_1 dinv (wrapOf src)) ewf) (Host.gather gather_S100000_S1700000x1_S1700000_n_0_n_n_0_1_1 dinv (wrapOf dst))

/-- Per edge, `dinv[src] · w · dinv[dst]` with `dinv` the degree's inverse square root. -/
def normOf (src dst : (⟨S1700000, .i32⟩ : BufTy).Contents (Elt F)) (ewf : (⟨S1700000, .f32⟩ : BufTy).Contents (Elt F)) :
    (⟨S1700000, .f32⟩ : BufTy).Contents (Elt F) :=
  normFrom (dinvOf (degOf dst ewf)) src dst ewf

/-- The features aggregated along the edges: gathered at the sources, scaled by the norm, scatter-added at the
    destinations. -/
def aggOf (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (wrapOf src)) (broadcastInDim S1700000x64 ![0, 1] bcast_S1700000x1_S1700000x64_0_1 (broadcastInDim S1700000x1 ![0] bcast_S1700000_S1700000x1_0 nrm)))

/-- The host's bias-and-clamp, as the reference prints it. -/
def hostBiasRelu (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

open Cert.Lib.MatProd Cert.Lib.BiasRelu

/-- The two-layer network on the extended reals: each layer a dense product, the aggregation along the edges, the
    bias and the clamp. -/
def gcn (x : S100000x128.Idx → EReal) (ei : (⟨S2x1600000, .i32⟩ : BufTy).Contents (Elt Ideal)) (ew : S1600000.Idx → EReal)
    (W1 : S128x64.Idx → EReal) (b1 : S64.Idx → EReal) (W2 : S64x64.Idx → EReal) (b2 : S64.Idx → EReal) : S100000x64.Idx → EReal :=
  biasRelu (M := 100000) (N := 64)
    (aggOf (F := Ideal)
      (prod (M := 100000) (K := 64) (N := 64)
        (biasRelu (M := 100000) (N := 64)
          (aggOf (F := Ideal) (prod (M := 100000) (K := 128) (N := 64) x W1) (srcOf ei) (dstOf ei) (normOf (srcOf ei) (dstOf ei) (ewOf ew)))
          b1)
        W2)
      (srcOf ei) (dstOf ei) (normOf (srcOf ei) (dstOf ei) (ewOf ew)))
    b2

end Cert.Gcn

end
-- ==== Proof.LibCat2.lean ====
/-
  A two-piece `concatenate` whose pieces a rewriting pass can reach.

  The library's `concatenate` takes its pieces as a list of (shape, array) pairs together with a fact about that
  list's shapes. The fact's TYPE mentions the list, so a rewriting pass that keeps terms well typed argument by
  argument must leave the list alone: unfolding a line of host operations that holds a `stablehlo.concatenate`
  (for example jax's `jnp.concatenate([edge_index[0], arange(n)])`) stops at its operands, and whatever they read —
  an argument buffer — stays hidden inside them. `cat2` is the same join with the fact stated over the two shapes
  only, so the two arrays are ordinary arguments; add `concatenate_pair` to the set of rewriting lemmas that unfolds
  the line (it holds by `rfl`) and the pass goes on into both pieces. Imports only the Idealize library.
-/
import Idealize.ShloMosaic.PureOps.ShapeOps

noncomputable section

namespace Cert.Lib.Cat2

open Idealize.ShloMosaic

/-- Two arrays joined along an axis, with the fact about the shapes kept apart from the arrays: the library's
    `concatenate` takes the pieces as a list of (shape, array) pairs and a fact about that list's shapes, so the fact
    mentions the arrays' list; here it mentions the two shapes only, and the arrays are ordinary arguments. -/
def cat2 {α : Type} {t : Shape} {a : Fin t.rank} {s₁ s₂ : Shape} (h : Shape.Concatenates [s₁, s₂] t a)
    (x₁ : s₁.Idx → α) (x₂ : s₂.Idx → α) : t.Idx → α :=
  concatenate t a [⟨s₁, x₁⟩, ⟨s₂, x₂⟩] h

/-- A `concatenate` of two pieces is `cat2` of them. -/
theorem concatenate_pair {α : Type} {t : Shape} {a : Fin t.rank} {s₁ s₂ : Shape} (h : Shape.Concatenates [s₁, s₂] t a)
    (x₁ : s₁.Idx → α) (x₂ : s₂.Idx → α) : concatenate t a [⟨s₁, x₁⟩, ⟨s₂, x₂⟩] h = cat2 h x₁ x₂ := rfl

end Cert.Lib.Cat2

end
-- ==== Proof.KHost.lean ====
/-
  The kernel program's host stretches, read as the host functions of `Cert.Gcn`.

  Between its four pallas_calls the kernel program runs the same host operations as the reference. From ANY buffer
  contents `X`: the three stretches before the first call leave the edge lists (`srcOf`, `dstOf` of the edge index)
  and the norm (`normOf` of them and the weights) in their buffers; the stretch after the first call, and the one
  after the third, leave the aggregation `aggOf` of the feature matrix the call before them wrote, read with the
  edge lists and the norm as they stand in their buffers; and none of these stretches writes an argument array or
  a buffer a later step reads again. The operations are not opened: each statement is the printed line of
  operations composed, which is the named function by definition (the two programs declare the same shapes and
  operation records under their own names).
-/
import proofs.«126585_j22900765623076_1_alg».proof.Proof.Gen.KernelIdeal.Launch
import proofs.«126585_j22900765623076_1_alg».proof.Proof.GcnSpec
import proofs.«126585_j22900765623076_1_alg».proof.Proof.LibCat2
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

/-- A line of host operations composed at a buffer, in one rewriting pass: each operation's result at its own
    buffer is its function of its operands' contents, any other buffer keeps what it held; a two-piece concatenate is
    restated so that the pass reaches its pieces. -/
macro "host_results" : tactic =>
  `(tactic| (simp (disch := decide) only [after_cons, after_nil, Cert.Lib.Cat2.concatenate_pair,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## Before the first call: the edge lists and the norm -/

theorem first_src (X : Valuation τ sig (Elt Ideal)) :
    StableHlo.after (hostOps0_2 (F := Ideal)) (StableHlo.after (hostOps0_1 (F := Ideal)) (StableHlo.after (hostOps0 (F := Ideal)) X)) (Proc.devRef .tc main_v5) = Cert.Gcn.srcOf (F := Ideal) (X (Proc.devRef .tc main_arg1)) := by
  dsimp only [hostOps0, hostOps0_1, hostOps0_2]
  host_results <;> rfl

theorem first_dst (X : Valuation τ sig (Elt Ideal)) :
    StableHlo.after (hostOps0_2 (F := Ideal)) (StableHlo.after (hostOps0_1 (F := Ideal)) (StableHlo.after (hostOps0 (F := Ideal)) X)) (Proc.devRef .tc main_v6) = Cert.Gcn.dstOf (F := Ideal) (X (Proc.devRef .tc main_arg1)) := by
  dsimp only [hostOps0, hostOps0_1, hostOps0_2]
  host_results <;> rfl

/-! The norm, stretch by stretch: the first stretch leaves the edge lists, the weights, where the degree is positive
    and its inverse square root; the second chooses between that and zero; the third gathers and multiplies. -/

theorem st0_src (X : Valuation τ sig (Elt Ideal)) :
    StableHlo.after (hostOps0 (F := Ideal)) X (Proc.devRef .tc main_v5) = Cert.Gcn.srcOf (F := Ideal) (X (Proc.devRef .tc main_arg1)) := by
  dsimp only [hostOps0]
  host_results <;> rfl

theorem st0_dst (X : Valuation τ sig (Elt Ideal)) :
    StableHlo.after (hostOps0 (F := Ideal)) X (Proc.devRef .tc main_v6) = Cert.Gcn.dstOf (F := Ideal) (X (Proc.devRef .tc main_arg1)) := by
  dsimp only [hostOps0]
  host_results <;> rfl

theorem st0_ew (X : Valuation τ sig (Elt Ideal)) :
    StableHlo.after (hostOps0 (F := Ideal)) X (Proc.devRef .tc main_v8) = Cert.Gcn.ewOf (F := Ideal) (X (Proc.devRef .tc main_arg2)) := by
  dsimp only [hostOps0]
  host_results <;> rfl

theorem st0_pos (X : Valuation τ sig (Elt Ideal)) :
    StableHlo.after (hostOps0 (F := Ideal)) X (Proc.devRef .tc main_v13) = Cert.Gcn.posOf (F := Ideal) (Cert.Gcn.degOf (F := Ideal) (Cert.Gcn.dstOf (X (Proc.devRef .tc main_arg1))) (Cert.Gcn.ewOf (X (Proc.devRef .tc main_arg2)))) := by
  dsimp only [hostOps0]
  host_results <;> rfl

theorem st0_rs (X : Valuation τ sig (Elt Ideal)) :
    StableHlo.after (hostOps0 (F := Ideal)) X (Proc.devRef .tc main_v14) = Host.rsqrt (F := Ideal) (φ := .f32) (Cert.Gcn.degOf (F := Ideal) (Cert.Gcn.dstOf (X (Proc.devRef .tc main_arg1))) (Cert.Gcn.ewOf (X (Proc.devRef .tc main_arg2)))) := by
  dsimp only [hostOps0]
  host_results <;> rfl

theorem st0_zero (X : Valuation τ sig (Elt Ideal)) :
    StableHlo.after (hostOps0 (F := Ideal)) X (Proc.devRef .tc main_cst_2) = constant (F := Ideal) Cert.ReferenceIdeal.S_ .f32 0x00000000#32 := by
  dsimp only [hostOps0]
  host_results <;> rfl

theorem st1_dinv (X : Valuation τ sig (Elt Ideal)) :
    StableHlo.after (hostOps0_1 (F := Ideal)) X (Proc.devRef .tc main_v15) = Cert.Gcn.dinvFrom (F := Ideal) (X (Proc.devRef .tc main_v13)) (X (Proc.devRef .tc main_v14)) (X (Proc.devRef .tc main_cst_2)) := by
  dsimp only [hostOps0_1]
  host_results <;> rfl

theorem st1_src (X : Valuation τ sig (Elt Ideal)) :
    StableHlo.after (hostOps0_1 (F := Ideal)) X (Proc.devRef .tc main_v5) = X (Proc.devRef .tc main_v5) := by
  dsimp only [hostOps0_1]
  host_results <;> rfl

theorem st1_dst (X : Valuation τ sig (Elt Ideal)) :
    StableHlo.after (hostOps0_1 (F := Ideal)) X (Proc.devRef .tc main_v6) = X (Proc.devRef .tc main_v6) := by
  dsimp only [hostOps0_1]
  host_results <;> rfl

theorem st1_ew (X : Valuation τ sig (Elt Ideal)) :
    StableHlo.after (hostOps0_1 (F := Ideal)) X (Proc.devRef .tc main_v8) = X (Proc.devRef .tc main_v8) := by
  dsimp only [hostOps0_1]
  host_results <;> rfl

theorem st2_norm (X : Valuation τ sig (Elt Ideal)) :
    StableHlo.after (hostOps0_2 (F := Ideal)) X (Proc.devRef .tc main_v31) = Cert.Gcn.normFrom (F := Ideal) (X (Proc.devRef .tc main_v15)) (X (Proc.devRef .tc main_v5)) (X (Proc.devRef .tc main_v6)) (X (Proc.devRef .tc main_v8)) := by
  dsimp only [hostOps0_2]
  host_results <;> rfl

/-- The three stretches together leave the norm of the edge lists and the weights. -/
theorem first_norm (X : Valuation τ sig (Elt Ideal)) :
    StableHlo.after (hostOps0_2 (F := Ideal)) (StableHlo.after (hostOps0_1 (F := Ideal)) (StableHlo.after (hostOps0 (F := Ideal)) X)) (Proc.devRef .tc main_v31)
      = Cert.Gcn.normOf (F := Ideal) (Cert.Gcn.srcOf (X (Proc.devRef .tc main_arg1))) (Cert.Gcn.dstOf (X (Proc.devRef .tc main_arg1))) (Cert.Gcn.ewOf (X (Proc.devRef .tc main_arg2))) := by
  rw [st2_norm, st1_dinv, st1_src, st1_dst, st1_ew, st0_pos, st0_rs, st0_zero, st0_src, st0_dst, st0_ew]
  rfl

theorem first_arg0 (X : Valuation τ sig (Elt Ideal)) :
    StableHlo.after (hostOps0_2 (F := Ideal)) (StableHlo.after (hostOps0_1 (F := Ideal)) (StableHlo.after (hostOps0 (F := Ideal)) X)) (Proc.devRef .tc main_arg0) = X (Proc.devRef .tc main_arg0) := by
  dsimp only [hostOps0, hostOps0_1, hostOps0_2]
  host_results <;> rfl

theorem first_arg3 (X : Valuation τ sig (Elt Ideal)) :
    StableHlo.after (hostOps0_2 (F := Ideal)) (StableHlo.after (hostOps0_1 (F := Ideal)) (StableHlo.after (hostOps0 (F := Ideal)) X)) (Proc.devRef .tc main_arg3) = X (Proc.devRef .tc main_arg3) := by
  dsimp only [hostOps0, hostOps0_1, hostOps0_2]
  host_results <;> rfl

theorem first_arg4 (X : Valuation τ sig (Elt Ideal)) :
    StableHlo.after (hostOps0_2 (F := Ideal)) (StableHlo.after (hostOps0_1 (F := Ideal)) (StableHlo.after (hostOps0 (F := Ideal)) X)) (Proc.devRef .tc main_arg4) = X (Proc.devRef .tc main_arg4) := by
  dsimp only [hostOps0, hostOps0_1, hostOps0_2]
  host_results <;> rfl

theorem first_arg5 (X : Valuation τ sig (Elt Ideal)) :
    StableHlo.after (hostOps0_2 (F := Ideal)) (StableHlo.after (hostOps0_1 (F := Ideal)) (StableHlo.after (hostOps0 (F := Ideal)) X)) (Proc.devRef .tc main_arg5) = X (Proc.devRef .tc main_arg5) := by
  dsimp only [hostOps0, hostOps0_1, hostOps0_2]
  host_results <;> rfl

theorem first_arg6 (X : Valuation τ sig (Elt Ideal)) :
    StableHlo.after (hostOps0_2 (F := Ideal)) (StableHlo.after (hostOps0_1 (F := Ideal)) (StableHlo.after (hostOps0 (F := Ideal)) X)) (Proc.devRef .tc main_arg6) = X (Proc.devRef .tc main_arg6) := by
  dsimp only [hostOps0, hostOps0_1, hostOps0_2]
  host_results <;> rfl

/-! ## After the first call: the first layer's aggregation -/

theorem second_agg (X : Valuation τ sig (Elt Ideal)) :
    StableHlo.after (hostOps1 (F := Ideal)) X (Proc.devRef .tc main_v45)
      = Cert.Gcn.aggOf (F := Ideal) (X (Proc.devRef .tc main_v32)) (X (Proc.devRef .tc main_v5)) (X (Proc.devRef .tc main_v6)) (X (Proc.devRef .tc main_v31)) := by
  dsimp only [hostOps1]
  host_results <;> rfl

theorem second_src (X : Valuation τ sig (Elt Ideal)) :
    StableHlo.after (hostOps1 (F := Ideal)) X (Proc.devRef .tc main_v5) = X (Proc.devRef .tc main_v5) := by
  dsimp only [hostOps1]
  host_results <;> rfl

theorem second_dst (X : Valuation τ sig (Elt Ideal)) :
    StableHlo.after (hostOps1 (F := Ideal)) X (Proc.devRef .tc main_v6) = X (Proc.devRef .tc main_v6) := by
  dsimp only [hostOps1]
  host_results <;> rfl

theorem second_norm (X : Valuation τ sig (Elt Ideal)) :
    StableHlo.after (hostOps1 (F := Ideal)) X (Proc.devRef .tc main_v31) = X (Proc.devRef .tc main_v31) := by
  dsimp only [hostOps1]
  host_results <;> rfl

theorem second_arg4 (X : Valuation τ sig (Elt Ideal)) :
    StableHlo.after (hostOps1 (F := Ideal)) X (Proc.devRef .tc main_arg4) = X (Proc.devRef .tc main_arg4) := by
  dsimp only [hostOps1]
  host_results <;> rfl

theorem second_arg5 (X : Valuation τ sig (Elt Ideal)) :
    StableHlo.after (hostOps1 (F := Ideal)) X (Proc.devRef .tc main_arg5) = X (Proc.devRef .tc main_arg5) := by
  dsimp only [hostOps1]
  host_results <;> rfl

theorem second_arg6 (X : Valuation τ sig (Elt Ideal)) :
    StableHlo.after (hostOps1 (F := Ideal)) X (Proc.devRef .tc main_arg6) = X (Proc.devRef .tc main_arg6) := by
  dsimp only [hostOps1]
  host_results <;> rfl

/-! ## After the third call: the second layer's aggregation -/

theorem third_agg (X : Valuation τ sig (Elt Ideal)) :
    StableHlo.after (hostOps3 (F := Ideal)) X (Proc.devRef .tc main_v60)
      = Cert.Gcn.aggOf (F := Ideal) (X (Proc.devRef .tc main_v47)) (X (Proc.devRef .tc main_v5)) (X (Proc.devRef .tc main_v6)) (X (Proc.devRef .tc main_v31)) := by
  dsimp only [hostOps3]
  host_results <;> rfl

theorem third_arg6 (X : Valuation τ sig (Elt Ideal)) :
    StableHlo.after (hostOps3 (F := Ideal)) X (Proc.devRef .tc main_arg6) = X (Proc.devRef .tc main_arg6) := by
  dsimp only [hostOps3]
  host_results <;> rfl

end Cert.KernelIdeal.HostSide

end
-- ==== Proof.Mat0.lean ====
/-
  The first dense product, block of rows by block of rows.

  The first pallas_call walks the node features X : [100000, 128] in ten blocks of 10000 rows; at each point it
  multiplies the point's block of rows by the whole weight matrix W : [128, 64] (both rounded to bf16 on the way
  in, which changes nothing at the ideal values) into a zero accumulator and writes the [10000, 64] result back as
  the same block of rows of the output. Entry (p, q) of the product of rows 10000·t … 10000·t + 9999 of X with W
  is entry (10000·t + p, q) of X · W, because an entry of a matrix product depends on the left operand through
  its own row only; the ten blocks tile the output's rows, so the output array ends holding X · W.
  Everything is stated at the contents `V` the region is entered with, whatever they are.
-/
import proofs.«126585_j22900765623076_1_alg».proof.Proof.Gen.KernelIdeal.Frame
import proofs.«126585_j22900765623076_1_alg».proof.Proof.LibMatProd
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Mat0

open Cert.KernelIdeal Cert.KernelIdeal.Gen Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-! ## The contraction record of the body's product: one contracted axis of extent 128 -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores is the product of the two blocks it loaded. -/
theorem pay_eq (x0 : Vec Ideal S10000x128 .f32) (x1 : Vec Ideal S128x64 .f32) :
    k0_pay1 (F := Ideal) x0 x1 = prod (M := 10000) (K := 128) (N := 64) x0 x1 := by
  unfold k0_pay1
  exact matmul_zero_eq_prod (M := 10000) (K := 128) (N := 64) dot_S10000x128_S128x64_S10000x64_1_0_0_1_n_n rfl rfl
    lhs_0 lhs_1 rhs_0 rhs_1 none (truncf .bf16 x0 bitsLt_bf16_f32) (truncf .bf16 x1 bitsLt_bf16_f32)

/-! ## The blocks -/

/-- The printed index maps over the grid: X and the output move with the point along the rows, W stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of X at point `t` is rows `10000 t …` of X. -/
theorem xblk_apply (c : Dev nD) (t : Fin cfg0.N) (x : S10000x128.Idx) (k : S100000x128.Idx)
    (hk0 : (k 0).val = t.val * 10000 + (x 0).val) (hk1 : (k 1).val = (x 1).val) :
    (iblk0 V c 0 t : Vec Ideal S10000x128 .f32) x = (V c main_arg0 : S100000x128.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The block of W at every point is W. -/
theorem wblk_eq (c : Dev nD) (t : Fin cfg0.N) :
    (iblk0 V c 1 t : Vec Ideal S128x64 .f32) = (V c main_arg3 : S128x64.Idx → Elt Ideal .f32) := by
  obtain ⟨-, -, e2, e3, -⟩ := idx_facts t
  funext x
  unfold iblk0
  rw [View.read_apply]
  show V c main_arg3 _ = V c main_arg3 _
  congr 1
  funext a
  apply Fin.ext
  match a with
  | ⟨0, _⟩ => show win0_1.index t 0 * 128 + 1 * (x 0).val = (x 0).val; rw [e2]; omega
  | ⟨1, _⟩ => show win0_1.index t 1 * 64 + 1 * (x 1).val = (x 1).val; rw [e3]; omega

/-- A row of a product depends on the left operand through that row only. -/
theorem prod_block (l : S100000x128.Idx → EReal) (r : S128x64.Idx → EReal) (lb : S10000x128.Idx → EReal) (T : ℕ)
    (hl : ∀ (x : S10000x128.Idx) (k : S100000x128.Idx), (k 0).val = T * 10000 + (x 0).val → (k 1).val = (x 1).val → lb x = l k)
    (y : S10000x64.Idx) (i : S100000x64.Idx) (hi0 : (i 0).val = T * 10000 + (y 0).val) (hi1 : (i 1).val = (y 1).val) :
    prod (M := 10000) (K := 128) (N := 64) lb r y = prod (M := 100000) (K := 128) (N := 64) l r i := by
  unfold prod
  refine Finset.sum_congr rfl fun k _ => ?_
  refine congrArg₂ (· * ·) (hl _ _ hi0 rfl) (congrArg r ?_)
  funext a
  apply Fin.ext
  match a with
  | ⟨0, _⟩ => rfl
  | ⟨1, _⟩ => exact hi1.symm

/-- What point `t` writes back is block `t` of the whole product. -/
theorem flushed_eq (c : Dev nD) (t : Fin cfg0.N) :
    (dat0 V c).flushed 2 t = ((cfg0.win 2).blk t).view.read (Elt Ideal)
      (prod (M := 100000) (K := 128) (N := 64) (V c main_arg0) (V c main_arg3)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq, wblk_eq]
  funext y
  show prod (M := 10000) (K := 128) (N := 64) (iblk0 V c 0 t) (V c main_arg3) y
    = prod (M := 100000) (K := 128) (N := 64) (V c main_arg0) (V c main_arg3) (((cfg0.win 2).blk t).view.emb y)
  refine prod_block _ _ _ t.val (fun x k h0 h1 => xblk_apply V c t x k h0 h1) y _ ?_ ?_
  · show win0_2.index t 0 * 10000 + 1 * (y 0).val = t.val * 10000 + (y 0).val; rw [e4]; omega
  · show win0_2.index t 1 * 64 + 1 * (y 1).val = (y 1).val; rw [e5]; omega

/-- An index of the output is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the output is in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The output array after the region: the whole product of the two operand arrays as the region found them. -/
theorem final (c : Dev nD) : (dat0 V c).arrAt 2 cfg0.N
    = prod (M := 100000) (K := 128) (N := 64) (V c main_arg0) (V c main_arg3) :=
  (dat0 V c).arrAt_eq_of_cover 2 _ (fun t _ => flushed_eq V c t) cover

end Cert.KernelIdeal.Mat0

end
-- ==== Proof.Bias1.lean ====
/-
  The first layer's bias and clamp, block of rows by block of rows.

  The second pallas_call walks the aggregated messages A : [100000, 64] in ten blocks of 10000 rows, with the whole
  bias vector b : [64] at every point; at each point it adds the bias to every row of the block and clamps the sum
  below at zero, and writes the block back as the same rows of the output. Entry (p, q) of what point t writes is
  max (A (10000·t + p, q) + b q) 0, the function `biasRelu A b` at that entry; the ten blocks tile the output's
  rows, so the output array ends holding `biasRelu A b`. Everything is stated at the contents `V` the region is
  entered with, whatever they are.
-/
import proofs.«126585_j22900765623076_1_alg».proof.Proof.Gen.KernelIdeal.Frame
import proofs.«126585_j22900765623076_1_alg».proof.Proof.LibBiasRelu
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Bias1

open Cert.KernelIdeal Cert.KernelIdeal.Gen Cert.Lib.BiasRelu

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body stores, at an entry: the loaded block's entry plus the bias at the entry's column, clamped at zero. -/
theorem pay_apply (x0 : Vec Ideal S10000x64 .f32) (x1 : Vec Ideal S64 .f32) (p : Fin 10000) (q : Fin 64) :
    k1_pay1 (F := Ideal) x0 x1 (ix2 p q) = biasRelu (M := 10000) (N := 64) x0 x1 (ix2 p q) := by
  unfold k1_pay1
  exact kernel_apply (M := 10000) (N := 64) x0 x1 shapeCasts_S10000x64_S10000x64 shapeCasts_S64_S1x64 broadcasts_S1x64_S10000x64 p q

/-! ## The blocks -/

/-- The printed index maps over the grid: A and the output move with the point along the rows, the bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The block of A at point `t` is rows `10000 t …` of A. -/
theorem ablk_apply (c : Dev nD) (t : Fin cfg1.N) (x : S10000x64.Idx) (k : S100000x64.Idx)
    (hk0 : (k 0).val = t.val * 10000 + (x 0).val) (hk1 : (k 1).val = (x 1).val) :
    (iblk1 V c 0 t : Vec Ideal S10000x64 .f32) x = (V c main_v45 : S100000x64.Idx → Elt Ideal .f32) k := by
  obtain ⟨e0, e1, -⟩ := idx_facts t
  unfold iblk1
  rw [View.read_apply]
  show V c main_v45 _ = V c main_v45 _
  congr 1
  funext a
  apply Fin.ext
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- The block of the bias at every point is the bias. -/
theorem bblk_eq (c : Dev nD) (t : Fin cfg1.N) :
    (iblk1 V c 1 t : Vec Ideal S64 .f32) = (V c main_arg4 : S64.Idx → Elt Ideal .f32) := by
  obtain ⟨-, -, e2, -⟩ := idx_facts t
  funext x
  unfold iblk1
  rw [View.read_apply]
  show V c main_arg4 _ = V c main_arg4 _
  congr 1
  funext a
  apply Fin.ext
  match a with
  | ⟨0, _⟩ => show win1_1.index t 0 * 64 + 1 * (x 0).val = (x 0).val; rw [e2]; omega

/-- An entry of what the body stores from a block of rows of `A` is `biasRelu A b` at the entry's place in the array. -/
theorem pay_block (A : S100000x64.Idx → EReal) (b : S64.Idx → EReal) (ab : Vec Ideal S10000x64 .f32) (T : ℕ)
    (ha : ∀ (x : S10000x64.Idx) (k : S100000x64.Idx), (k 0).val = T * 10000 + (x 0).val → (k 1).val = (x 1).val → ab x = A k)
    (y : S10000x64.Idx) (i : S100000x64.Idx) (hi0 : (i 0).val = T * 10000 + (y 0).val) (hi1 : (i 1).val = (y 1).val) :
    k1_pay1 (F := Ideal) ab b y = biasRelu (M := 100000) (N := 64) A b i := by
  obtain ⟨p, q, rfl⟩ : ∃ (p : Fin 10000) (q : Fin 64), y = ix2 p q := ⟨y 0, y 1, eq_ix2 y⟩
  rw [pay_apply, biasRelu_apply, ha (ix2 p q) i hi0 hi1]
  have hq : (ix1 q : S64.Idx) = ix1 (i 1) := funext fun a => Fin.ext (by
    match a with
    | ⟨0, _⟩ => exact hi1.symm)
  rw [hq]
  rfl

/-- What point `t` writes back is block `t` of `biasRelu A b`. -/
theorem flushed_eq (c : Dev nD) (t : Fin cfg1.N) :
    (dat1 V c).flushed 2 t = ((cfg1.win 2).blk t).view.read (Elt Ideal)
      (biasRelu (M := 100000) (N := 64) (V c main_v45) (V c main_arg4)) := by
  obtain ⟨-, -, -, e3, e4⟩ := idx_facts t
  show (cfg1.win 2).cut (grid1.coords t) ((dat1 V c).after 2 t) = _
  rw [after1_2]
  unfold out1_2
  rw [View.canon_unit_zero hz2]
  simp only [View.ld_unit_zero (S := S10000x64) hz2, View.ld_unit_zero (S := S64) hz1]
  rw [bblk_eq]
  funext y
  show k1_pay1 (F := Ideal) (iblk1 V c 0 t) (V c main_arg4) y
    = biasRelu (M := 100000) (N := 64) (V c main_v45) (V c main_arg4) (((cfg1.win 2).blk t).view.emb y)
  refine pay_block _ _ _ t.val (fun x k h0 h1 => ablk_apply V c t x k h0 h1) y _ ?_ ?_
  · show win1_2.index t 0 * 10000 + 1 * (y 0).val = t.val * 10000 + (y 0).val; rw [e3]; omega
  · show win1_2.index t 1 * 64 + 1 * (y 1).val = (y 1).val; rw [e4]; omega

/-- An index of the output is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- Row `r` of the output is in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, e3, e4⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e3]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e4]; omega

/-- The output array after the region: `biasRelu` of the two operand arrays as the region found them. -/
theorem final (c : Dev nD) : (dat1 V c).arrAt 2 cfg1.N
    = biasRelu (M := 100000) (N := 64) (V c main_v45) (V c main_arg4) :=
  (dat1 V c).arrAt_eq_of_cover 2 _ (fun t _ => flushed_eq V c t) cover

end Cert.KernelIdeal.Bias1

end
-- ==== Proof.Mat2.lean ====
/-
  The second dense product, block of rows by block of rows.

  The third pallas_call walks the hidden features H : [100000, 64] (the first layer's output) in ten blocks of 10000
  rows; at each point it multiplies the point's block of rows by the whole weight matrix W : [64, 64] (both rounded to
  bf16 on the way in, which changes nothing at the ideal values) into a zero accumulator and writes the [10000, 64]
  result back as the same block of rows of the output. Entry (p, q) of the product of rows 10000·t … 10000·t + 9999 of
  H with W is entry (10000·t + p, q) of H · W; the ten blocks tile the output's rows, so the output array ends
  holding H · W. Everything is stated at the contents `V` the region is entered with, whatever they are.
-/
import proofs.«126585_j22900765623076_1_alg».proof.Proof.Gen.KernelIdeal.Frame
import proofs.«126585_j22900765623076_1_alg».proof.Proof.LibMatProd
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Mat2

open Cert.KernelIdeal Cert.KernelIdeal.Gen Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-! ## The contraction record of the body's product: one contracted axis of extent 64 -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores is the product of the two blocks it loaded. -/
theorem pay_eq (x0 : Vec Ideal S10000x64 .f32) (x1 : Vec Ideal S64x64 .f32) :
    k2_pay1 (F := Ideal) x0 x1 = prod (M := 10000) (K := 64) (N := 64) x0 x1 := by
  unfold k2_pay1
  simp only [shapeCast_self]
  exact matmul_zero_eq_prod (M := 10000) (K := 64) (N := 64) dot_S10000x64_S64x64_S10000x64_1_0_0_1_n_n rfl rfl
    lhs_0 lhs_1 rhs_0 rhs_1 none (truncf .bf16 x0 bitsLt_bf16_f32) (truncf .bf16 x1 bitsLt_bf16_f32)

/-! ## The blocks -/

/-- The printed index maps over the grid: X and the output move with the point along the rows, W stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of X at point `t` is rows `10000 t …` of X. -/
theorem xblk_apply (c : Dev nD) (t : Fin cfg2.N) (x : S10000x64.Idx) (k : S100000x64.Idx)
    (hk0 : (k 0).val = t.val * 10000 + (x 0).val) (hk1 : (k 1).val = (x 1).val) :
    (iblk2 V c 0 t : Vec Ideal S10000x64 .f32) x = (V c main_v46 : S100000x64.Idx → Elt Ideal .f32) k := by
  obtain ⟨e0, e1, -⟩ := idx_facts t
  unfold iblk2
  rw [View.read_apply]
  show V c main_v46 _ = V c main_v46 _
  congr 1
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- The block of W at every point is W. -/
theorem wblk_eq (c : Dev nD) (t : Fin cfg2.N) :
    (iblk2 V c 1 t : Vec Ideal S64x64 .f32) = (V c main_arg5 : S64x64.Idx → Elt Ideal .f32) := by
  obtain ⟨-, -, e2, e3, -⟩ := idx_facts t
  funext x
  unfold iblk2
  rw [View.read_apply]
  show V c main_arg5 _ = V c main_arg5 _
  congr 1
  funext a
  apply Fin.ext
  match a with
  | ⟨0, _⟩ => show win2_1.index t 0 * 64 + 1 * (x 0).val = (x 0).val; rw [e2]; omega
  | ⟨1, _⟩ => show win2_1.index t 1 * 64 + 1 * (x 1).val = (x 1).val; rw [e3]; omega

/-- A row of a product depends on the left operand through that row only. -/
theorem prod_block (l : S100000x64.Idx → EReal) (r : S64x64.Idx → EReal) (lb : S10000x64.Idx → EReal) (T : ℕ)
    (hl : ∀ (x : S10000x64.Idx) (k : S100000x64.Idx), (k 0).val = T * 10000 + (x 0).val → (k 1).val = (x 1).val → lb x = l k)
    (y : S10000x64.Idx) (i : S100000x64.Idx) (hi0 : (i 0).val = T * 10000 + (y 0).val) (hi1 : (i 1).val = (y 1).val) :
    prod (M := 10000) (K := 64) (N := 64) lb r y = prod (M := 100000) (K := 64) (N := 64) l r i := by
  unfold prod
  refine Finset.sum_congr rfl fun k _ => ?_
  refine congrArg₂ (· * ·) (hl _ _ hi0 rfl) (congrArg r ?_)
  funext a
  apply Fin.ext
  match a with
  | ⟨0, _⟩ => rfl
  | ⟨1, _⟩ => exact hi1.symm

/-- What point `t` writes back is block `t` of the whole product. -/
theorem flushed_eq (c : Dev nD) (t : Fin cfg2.N) :
    (dat2 V c).flushed 2 t = ((cfg2.win 2).blk t).view.read (Elt Ideal)
      (prod (M := 100000) (K := 64) (N := 64) (V c main_v46) (V c main_arg5)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  rw [pay_eq, wblk_eq]
  funext y
  show prod (M := 10000) (K := 64) (N := 64) (iblk2 V c 0 t) (V c main_arg5) y
    = prod (M := 100000) (K := 64) (N := 64) (V c main_v46) (V c main_arg5) (((cfg2.win 2).blk t).view.emb y)
  refine prod_block _ _ _ t.val (fun x k h0 h1 => xblk_apply V c t x k h0 h1) y _ ?_ ?_
  · show win2_2.index t 0 * 10000 + 1 * (y 0).val = t.val * 10000 + (y 0).val; rw [e4]; omega
  · show win2_2.index t 1 * 64 + 1 * (y 1).val = (y 1).val; rw [e5]; omega

/-- An index of the output is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Row `r` of the output is in the block of point `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨-, -, -, -, e4, e5⟩ := idx_facts ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- The output array after the region: the whole product of the two operand arrays as the region found them. -/
theorem final (c : Dev nD) : (dat2 V c).arrAt 2 cfg2.N
    = prod (M := 100000) (K := 64) (N := 64) (V c main_v46) (V c main_arg5) :=
  (dat2 V c).arrAt_eq_of_cover 2 _ (fun t _ => flushed_eq V c t) cover

end Cert.KernelIdeal.Mat2

end
-- ==== Proof.Bias3.lean ====
/-
  The second layer's bias and clamp, block of rows by block of rows.

  The fourth pallas_call walks the aggregated messages A : [100000, 64] in ten blocks of 10000 rows, with the whole
  bias vector b : [64] at every point; at each point it adds the bias to every row of the block and clamps the sum
  below at zero, and writes the block back as the same rows of the output. Entry (p, q) of what point t writes is
  max (A (10000·t + p, q) + b q) 0, the function `biasRelu A b` at that entry; the ten blocks tile the output's
  rows, so the output array ends holding `biasRelu A b`. Everything is stated at the contents `V` the region is
  entered with, whatever they are.
-/
import proofs.«126585_j22900765623076_1_alg».proof.Proof.Gen.KernelIdeal.Frame
import proofs.«126585_j22900765623076_1_alg».proof.Proof.LibBiasRelu
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Bias3

open Cert.KernelIdeal Cert.KernelIdeal.Gen Cert.Lib.BiasRelu

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body stores, at an entry: the loaded block's entry plus the bias at the entry's column, clamped at zero. -/
theorem pay_apply (x0 : Vec Ideal S10000x64 .f32) (x1 : Vec Ideal S64 .f32) (p : Fin 10000) (q : Fin 64) :
    k3_pay1 (F := Ideal) x0 x1 (ix2 p q) = biasRelu (M := 10000) (N := 64) x0 x1 (ix2 p q) := by
  unfold k3_pay1
  exact kernel_apply (M := 10000) (N := 64) x0 x1 shapeCasts_S10000x64_S10000x64 shapeCasts_S64_S1x64 broadcasts_S1x64_S10000x64 p q

/-! ## The blocks -/

/-- The printed index maps over the grid: A and the output move with the point along the rows, the bias stays. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The block of A at point `t` is rows `10000 t …` of A. -/
theorem ablk_apply (c : Dev nD) (t : Fin cfg3.N) (x : S10000x64.Idx) (k : S100000x64.Idx)
    (hk0 : (k 0).val = t.val * 10000 + (x 0).val) (hk1 : (k 1).val = (x 1).val) :
    (iblk3 V c 0 t : Vec Ideal S10000x64 .f32) x = (V c main_v60 : S100000x64.Idx → Elt Ideal .f32) k := by
  obtain ⟨e0, e1, -⟩ := idx_facts t
  unfold iblk3
  rw [View.read_apply]
  show V c main_v60 _ = V c main_v60 _
  congr 1
  funext a
  apply Fin.ext
  match a with
  | ⟨0, _⟩ => show win3_0.index t 0 * 10000 + 1 * (x 0).val = (k 0).val; rw [e0, hk0]; omega
  | ⟨1, _⟩ => show win3_0.index t 1 * 64 + 1 * (x 1).val = (k 1).val; rw [e1, hk1]; omega

/-- The block of the bias at every point is the bias. -/
theorem bblk_eq (c : Dev nD) (t : Fin cfg3.N) :
    (iblk3 V c 1 t : Vec Ideal S64 .f32) = (V c main_arg6 : S64.Idx → Elt Ideal .f32) := by
  obtain ⟨-, -, e2, -⟩ := idx_facts t
  funext x
  unfold iblk3
  rw [View.read_apply]
  show V c main_arg6 _ = V c main_arg6 _
  congr 1
  funext a
  apply Fin.ext
  match a with
  | ⟨0, _⟩ => show win3_1.index t 0 * 64 + 1 * (x 0).val = (x 0).val; rw [e2]; omega

/-- An entry of what the body stores from a block of rows of `A` is `biasRelu A b` at the entry's place in the array. -/
theorem pay_block (A : S100000x64.Idx → EReal) (b : S64.Idx → EReal) (ab : Vec Ideal S10000x64 .f32) (T : ℕ)
    (ha : ∀ (x : S10000x64.Idx) (k : S100000x64.Idx), (k 0).val = T * 10000 + (x 0).val → (k 1).val = (x 1).val → ab x = A k)
    (y : S10000x64.Idx) (i : S100000x64.Idx) (hi0 : (i 0).val = T * 10000 + (y 0).val) (hi1 : (i 1).val = (y 1).val) :
    k3_pay1 (F := Ideal) ab b y = biasRelu (M := 100000) (N := 64) A b i := by
  obtain ⟨p, q, rfl⟩ : ∃ (p : Fin 10000) (q : Fin 64), y = ix2 p q := ⟨y 0, y 1, eq_ix2 y⟩
  rw [pay_apply, biasRelu_apply, ha (ix2 p q) i hi0 hi1]
  have hq : (ix1 q : S64.Idx) = ix1 (i 1) := funext fun a => Fin.ext (by
    match a with
    | ⟨0, _⟩ => exact hi1.symm)
  rw [hq]
  rfl

/-- What point `t` writes back is block `t` of `biasRelu A b`. -/
theorem flushed_eq (c : Dev nD) (t : Fin cfg3.N) :
    (dat3 V c).flushed 2 t = ((cfg3.win 2).blk t).view.read (Elt Ideal)
      (biasRelu (M := 100000) (N := 64) (V c main_v60) (V c main_arg6)) := by
  obtain ⟨-, -, -, e3, e4⟩ := idx_facts t
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  rw [bblk_eq]
  funext y
  show k3_pay1 (F := Ideal) (iblk3 V c 0 t) (V c main_arg6) y
    = biasRelu (M := 100000) (N := 64) (V c main_v60) (V c main_arg6) (((cfg3.win 2).blk t).view.emb y)
  refine pay_block _ _ _ t.val (fun x k h0 h1 => ablk_apply V c t x k h0 h1) y _ ?_ ?_
  · show win3_2.index t 0 * 10000 + 1 * (y 0).val = t.val * 10000 + (y 0).val; rw [e3]; omega
  · show win3_2.index t 1 * 64 + 1 * (y 1).val = (y 1).val; rw [e4]; omega

/-- An index of the output is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row `r` of the output is in the block of point `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, e3, e4⟩ := idx_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e3]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e4]; omega

/-- The output array after the region: `biasRelu` of the two operand arrays as the region found them. -/
theorem final (c : Dev nD) : (dat3 V c).arrAt 2 cfg3.N
    = biasRelu (M := 100000) (N := 64) (V c main_v60) (V c main_arg6) :=
  (dat3 V c).arrAt_eq_of_cover 2 _ (fun t _ => flushed_eq V c t) cover

end Cert.KernelIdeal.Bias3

end
-- ==== Proof.KValue.lean ====
/-
  The kernel program's result array is the two-layer network `Cert.Gcn.gcn` of its arguments.

  The run's last boundary assigns the result's buffer the fourth region's output array. Walking the boundaries
  back to the launch: the fourth region leaves `biasRelu` of the second aggregation and the second bias; the stretch
  before it leaves that aggregation, of the third region's product read with the edge lists and the norm; the third
  region leaves the product of the first layer's output with the second weights; the second region leaves
  `biasRelu` of the first aggregation and the first bias; the stretch before it leaves that aggregation, of the
  first region's product; the first region leaves the product of the node features with the first weights; and the
  three stretches before it leave the edge lists and the norm. An array no step in between writes is carried along
  unchanged: the arguments, and the edge lists and the norm from the first stretches up to the last aggregation.
-/
import proofs.«126585_j22900765623076_1_alg».proof.Proof.Gen.KernelIdeal.Frame
import proofs.«126585_j22900765623076_1_alg».proof.Proof.GcnSpec
import proofs.«126585_j22900765623076_1_alg».proof.Proof.KHost
import proofs.«126585_j22900765623076_1_alg».proof.Proof.Mat0
import proofs.«126585_j22900765623076_1_alg».proof.Proof.Bias1
import proofs.«126585_j22900765623076_1_alg».proof.Proof.Mat2
import proofs.«126585_j22900765623076_1_alg».proof.Proof.Bias3

noncomputable section

namespace Cert.KernelIdeal.KValue

open Idealize.ShloMosaic Idealize.ShloMosaic.TcCoe Idealize.SL.Sem
open Cert.KernelIdeal Cert.KernelIdeal.Gen Cert.Gcn Cert.Lib.MatProd Cert.Lib.BiasRelu

variable (m : (ℓ : Loc nD τ sig) → Buf (Elt Ideal) ℓ) (ρ : Dev nD → PrngReg) (c : Dev nD)

/-! ## At the first region's entry -/

theorem src3 : W3 m ρ c (Proc.devRef .tc main_v5) = (srcOf (F := Ideal) (m ((c : Thread nD τ).loc main_arg1))) := HostSide.first_src (W0 m ρ c)
theorem dst3 : W3 m ρ c (Proc.devRef .tc main_v6) = (dstOf (F := Ideal) (m ((c : Thread nD τ).loc main_arg1))) := HostSide.first_dst (W0 m ρ c)
theorem nrm3 : W3 m ρ c (Proc.devRef .tc main_v31) = (normOf (F := Ideal) (srcOf (F := Ideal) (m ((c : Thread nD τ).loc main_arg1))) (dstOf (F := Ideal) (m ((c : Thread nD τ).loc main_arg1))) (ewOf (F := Ideal) (m ((c : Thread nD τ).loc main_arg2)))) := HostSide.first_norm (W0 m ρ c)
theorem arg0_3 : W3 m ρ c (Proc.devRef .tc main_arg0) = (m ((c : Thread nD τ).loc main_arg0)) := HostSide.first_arg0 (W0 m ρ c)
theorem arg3_3 : W3 m ρ c (Proc.devRef .tc main_arg3) = (m ((c : Thread nD τ).loc main_arg3)) := HostSide.first_arg3 (W0 m ρ c)
theorem arg4_3 : W3 m ρ c (Proc.devRef .tc main_arg4) = (m ((c : Thread nD τ).loc main_arg4)) := HostSide.first_arg4 (W0 m ρ c)
theorem arg5_3 : W3 m ρ c (Proc.devRef .tc main_arg5) = (m ((c : Thread nD τ).loc main_arg5)) := HostSide.first_arg5 (W0 m ρ c)
theorem arg6_3 : W3 m ρ c (Proc.devRef .tc main_arg6) = (m ((c : Thread nD τ).loc main_arg6)) := HostSide.first_arg6 (W0 m ρ c)

/-! ## After the first region: the first product -/

theorem prod4 : W4 m ρ c (Proc.devRef .tc main_v32) = (prod (M := 100000) (K := 128) (N := 64) (m ((c : Thread nD τ).loc main_arg0)) (m ((c : Thread nD τ).loc main_arg3))) :=
  (W4_arr m ρ c 2).trans ((Mat0.final (V3 m ρ) c).trans
    (congrArg₂ (prod (M := 100000) (K := 128) (N := 64)) (arg0_3 m ρ c) (arg3_3 m ρ c)))
theorem src4 : W4 m ρ c (Proc.devRef .tc main_v5) = (srcOf (F := Ideal) (m ((c : Thread nD τ).loc main_arg1))) := (W4_of_ne m ρ c main_v5 (by decide)).trans (src3 m ρ c)
theorem dst4 : W4 m ρ c (Proc.devRef .tc main_v6) = (dstOf (F := Ideal) (m ((c : Thread nD τ).loc main_arg1))) := (W4_of_ne m ρ c main_v6 (by decide)).trans (dst3 m ρ c)
theorem nrm4 : W4 m ρ c (Proc.devRef .tc main_v31) = (normOf (F := Ideal) (srcOf (F := Ideal) (m ((c : Thread nD τ).loc main_arg1))) (dstOf (F := Ideal) (m ((c : Thread nD τ).loc main_arg1))) (ewOf (F := Ideal) (m ((c : Thread nD τ).loc main_arg2)))) := (W4_of_ne m ρ c main_v31 (by decide)).trans (nrm3 m ρ c)
theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)
theorem arg6_4 : W4 m ρ c (Proc.devRef .tc main_arg6) = (m ((c : Thread nD τ).loc main_arg6)) := (W4_of_ne m ρ c main_arg6 (by decide)).trans (arg6_3 m ρ c)

/-! ## At the second region's entry: the first aggregation -/

theorem agg5 : W5 m ρ c (Proc.devRef .tc main_v45) = (aggOf (F := Ideal) (prod (M := 100000) (K := 128) (N := 64) (m ((c : Thread nD τ).loc main_arg0)) (m ((c : Thread nD τ).loc main_arg3))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))) (ewOf (F := Ideal) (m ((c : Thread nD τ).loc main_arg2))))) :=
  (HostSide.second_agg (W4 m ρ c)).trans (by rw [prod4 m ρ c, src4 m ρ c, dst4 m ρ c, nrm4 m ρ c])
theorem src5 : W5 m ρ c (Proc.devRef .tc main_v5) = (srcOf (F := Ideal) (m ((c : Thread nD τ).loc main_arg1))) := (HostSide.second_src (W4 m ρ c)).trans (src4 m ρ c)
theorem dst5 : W5 m ρ c (Proc.devRef .tc main_v6) = (dstOf (F := Ideal) (m ((c : Thread nD τ).loc main_arg1))) := (HostSide.second_dst (W4 m ρ c)).trans (dst4 m ρ c)
theorem nrm5 : W5 m ρ c (Proc.devRef .tc main_v31) = (normOf (F := Ideal) (srcOf (F := Ideal) (m ((c : Thread nD τ).loc main_arg1))) (dstOf (F := Ideal) (m ((c : Thread nD τ).loc main_arg1))) (ewOf (F := Ideal) (m ((c : Thread nD τ).loc main_arg2)))) := (HostSide.second_norm (W4 m ρ c)).trans (nrm4 m ρ c)
theorem arg4_5 : W5 m ρ c (Proc.devRef .tc main_arg4) = (m ((c : Thread nD τ).loc main_arg4)) := (HostSide.second_arg4 (W4 m ρ c)).trans (arg4_4 m ρ c)
theorem arg5_5 : W5 m ρ c (Proc.devRef .tc main_arg5) = (m ((c : Thread nD τ).loc main_arg5)) := (HostSide.second_arg5 (W4 m ρ c)).trans (arg5_4 m ρ c)
theorem arg6_5 : W5 m ρ c (Proc.devRef .tc main_arg6) = (m ((c : Thread nD τ).loc main_arg6)) := (HostSide.second_arg6 (W4 m ρ c)).trans (arg6_4 m ρ c)

/-! ## After the second region: the first layer's output -/

theorem hid6 : W6 m ρ c (Proc.devRef .tc main_v46) = (biasRelu (M := 100000) (N := 64) (aggOf (F := Ideal) (prod (M := 100000) (K := 128) (N := 64) (m ((c : Thread nD τ).loc main_arg0)) (m ((c : Thread nD τ).loc main_arg3))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))) (ewOf (F := Ideal) (m ((c : Thread nD τ).loc main_arg2))))) (m ((c : Thread nD τ).loc main_arg4))) :=
  (W6_arr m ρ c 2).trans ((Bias1.final (V5 m ρ) c).trans
    (congrArg₂ (biasRelu (M := 100000) (N := 64)) (agg5 m ρ c) (arg4_5 m ρ c)))
theorem src6 : W6 m ρ c (Proc.devRef .tc main_v5) = (srcOf (F := Ideal) (m ((c : Thread nD τ).loc main_arg1))) := (W6_of_ne m ρ c main_v5 (by decide)).trans (src5 m ρ c)
theorem dst6 : W6 m ρ c (Proc.devRef .tc main_v6) = (dstOf (F := Ideal) (m ((c : Thread nD τ).loc main_arg1))) := (W6_of_ne m ρ c main_v6 (by decide)).trans (dst5 m ρ c)
theorem nrm6 : W6 m ρ c (Proc.devRef .tc main_v31) = (normOf (F := Ideal) (srcOf (F := Ideal) (m ((c : Thread nD τ).loc main_arg1))) (dstOf (F := Ideal) (m ((c : Thread nD τ).loc main_arg1))) (ewOf (F := Ideal) (m ((c : Thread nD τ).loc main_arg2)))) := (W6_of_ne m ρ c main_v31 (by decide)).trans (nrm5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)

/-! ## After the third region: the second product -/

theorem prod7 : W7 m ρ c (Proc.devRef .tc main_v47) = (prod (M := 100000) (K := 64) (N := 64) (biasRelu (M := 100000) (N := 64) (aggOf (F := Ideal) (prod (M := 100000) (K := 128) (N := 64) (m ((c : Thread nD τ).loc main_arg0)) (m ((c : Thread nD τ).loc main_arg3))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))) (ewOf (F := Ideal) (m ((c : Thread nD τ).loc main_arg2))))) (m ((c : Thread nD τ).loc main_arg4))) (m ((c : Thread nD τ).loc main_arg5))) :=
  (W7_arr m ρ c 2).trans ((Mat2.final (V6 m ρ) c).trans
    (congrArg₂ (prod (M := 100000) (K := 64) (N := 64)) (hid6 m ρ c) (arg5_6 m ρ c)))
theorem src7 : W7 m ρ c (Proc.devRef .tc main_v5) = (srcOf (F := Ideal) (m ((c : Thread nD τ).loc main_arg1))) := (W7_of_ne m ρ c main_v5 (by decide)).trans (src6 m ρ c)
theorem dst7 : W7 m ρ c (Proc.devRef .tc main_v6) = (dstOf (F := Ideal) (m ((c : Thread nD τ).loc main_arg1))) := (W7_of_ne m ρ c main_v6 (by decide)).trans (dst6 m ρ c)
theorem nrm7 : W7 m ρ c (Proc.devRef .tc main_v31) = (normOf (F := Ideal) (srcOf (F := Ideal) (m ((c : Thread nD τ).loc main_arg1))) (dstOf (F := Ideal) (m ((c : Thread nD τ).loc main_arg1))) (ewOf (F := Ideal) (m ((c : Thread nD τ).loc main_arg2)))) := (W7_of_ne m ρ c main_v31 (by decide)).trans (nrm6 m ρ c)
theorem arg6_7 : W7 m ρ c (Proc.devRef .tc main_arg6) = (m ((c : Thread nD τ).loc main_arg6)) := (W7_of_ne m ρ c main_arg6 (by decide)).trans (arg6_6 m ρ c)

/-! ## At the fourth region's entry: the second aggregation -/

theorem agg8 : W8 m ρ c (Proc.devRef .tc main_v60) = (aggOf (F := Ideal) (prod (M := 100000) (K := 64) (N := 64) (biasRelu (M := 100000) (N := 64) (aggOf (F := Ideal) (prod (M := 100000) (K := 128) (N := 64) (m ((c : Thread nD τ).loc main_arg0)) (m ((c : Thread nD τ).loc main_arg3))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))) (ewOf (F := Ideal) (m ((c : Thread nD τ).loc main_arg2))))) (m ((c : Thread nD τ).loc main_arg4))) (m ((c : Thread nD τ).loc main_arg5))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))) (ewOf (F := Ideal) (m ((c : Thread nD τ).loc main_arg2))))) :=
  (HostSide.third_agg (W7 m ρ c)).trans (by rw [prod7 m ρ c, src7 m ρ c, dst7 m ρ c, nrm7 m ρ c])
theorem arg6_8 : W8 m ρ c (Proc.devRef .tc main_arg6) = (m ((c : Thread nD τ).loc main_arg6)) := (HostSide.third_arg6 (W7 m ρ c)).trans (arg6_7 m ρ c)

/-! ## After the fourth region: the result -/

/-- The result's buffer at the run's last boundary holds the network of the argument arrays. -/
theorem value : W9 m ρ c (Proc.devRef .tc main_v61)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((Bias3.final (V8 m ρ) c).trans
    (congrArg₂ (biasRelu (M := 100000) (N := 64)) (agg8 m ρ c) (arg6_8 m ρ c)))

end Cert.KernelIdeal.KValue

end
-- ==== Proof.RefValue.lean ====
/-
  The reference's result is the two-layer network `Cert.Gcn.gcn` of its arguments.

  The reference's run states its result as one long term of the arguments. That term is the host functions of
  `Cert.Gcn` applied — the edge lists, the norm, the aggregation, spelt exactly as printed — around two host
  `dot_general`s and two bias-and-clamp steps; at the ideal values a `dot_general` over one contracted axis is the
  plain matrix product, and the host's bias-and-clamp is `biasRelu`. (The reference builds the edge lists and the
  norm once per layer; the two copies are the same term.)
-/
import proofs.«126585_j22900765623076_1_alg».proof.Proof.Gen.ReferenceIdeal.Run
import proofs.«126585_j22900765623076_1_alg».proof.Proof.Gen.ReferenceIdeal.Read
import proofs.«126585_j22900765623076_1_alg».proof.Proof.GcnSpec

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Gcn Cert.Lib.MatProd Cert.Lib.BiasRelu

variable (m : (ℓ : Loc nD τ sig) → Buf (Elt Ideal) ℓ)

set_option maxRecDepth 8192 in
/-- The run's term, folded into the host functions. -/
theorem res_eq_host (c : Dev nD) : res_main_v95 (F := Ideal) m c
    = hostBiasRelu (F := Ideal)
        (aggOf (F := Ideal)
          (Host.dotGeneral (F := Ideal) (φ₁ := .f32) (φ₂ := .f32) dot_S100000x64_S64x64_S100000x64_1_0_0_1_n_n none
            (hostBiasRelu (F := Ideal)
              (aggOf (F := Ideal)
                (Host.dotGeneral (F := Ideal) (φ₁ := .f32) (φ₂ := .f32) dot_S100000x128_S128x64_S100000x64_1_0_0_1_n_n none (m ((c.tc : Thread nD τ).loc main_arg0)) (m ((c.tc : Thread nD τ).loc main_arg3)))
                (srcOf (m ((c.tc : Thread nD τ).loc main_arg1))) (dstOf (m ((c.tc : Thread nD τ).loc main_arg1)))
                (normOf (srcOf (m ((c.tc : Thread nD τ).loc main_arg1))) (dstOf (m ((c.tc : Thread nD τ).loc main_arg1))) (ewOf (m ((c.tc : Thread nD τ).loc main_arg2)))))
              (m ((c.tc : Thread nD τ).loc main_arg4)))
            (m ((c.tc : Thread nD τ).loc main_arg5)))
          (srcOf (m ((c.tc : Thread nD τ).loc main_arg1))) (dstOf (m ((c.tc : Thread nD τ).loc main_arg1)))
          (normOf (srcOf (m ((c.tc : Thread nD τ).loc main_arg1))) (dstOf (m ((c.tc : Thread nD τ).loc main_arg1))) (ewOf (m ((c.tc : Thread nD τ).loc main_arg2)))))
        (m ((c.tc : Thread nD τ).loc main_arg6)) := by
  unfold res_main_v95
  rfl

/-- The first layer's host product is the plain matrix product. -/
theorem dot1_eq (x : FVec Ideal S100000x128 .f32) (W : FVec Ideal S128x64 .f32) :
    Host.dotGeneral dot_S100000x128_S128x64_S100000x64_1_0_0_1_n_n none x W = prod (M := 100000) (K := 128) (N := 64) x W :=
  dotGeneral_eq_prod (M := 100000) (K := 128) (N := 64) dot_S100000x128_S128x64_S100000x64_1_0_0_1_n_n rfl rfl
    Read.lhs_main_v32_0 Read.lhs_main_v32_1 Read.rhs_main_v32_0 Read.rhs_main_v32_1 none x W

/-- The second layer's host product is the plain matrix product. -/
theorem dot2_eq (x : FVec Ideal S100000x64 .f32) (W : FVec Ideal S64x64 .f32) :
    Host.dotGeneral dot_S100000x64_S64x64_S100000x64_1_0_0_1_n_n none x W = prod (M := 100000) (K := 64) (N := 64) x W :=
  dotGeneral_eq_prod (M := 100000) (K := 64) (N := 64) dot_S100000x64_S64x64_S100000x64_1_0_0_1_n_n rfl rfl
    Read.lhs_main_v78_0 Read.lhs_main_v78_1 Read.rhs_main_v78_0 Read.rhs_main_v78_1 none x W

/-- The host's bias-and-clamp is `biasRelu`. -/
theorem hostBiasRelu_eq (a : FVec Ideal S100000x64 .f32) (b : FVec Ideal S64 .f32) :
    hostBiasRelu (F := Ideal) a b = biasRelu (M := 100000) (N := 64) a b := by
  unfold hostBiasRelu
  exact host_eq (M := 100000) (N := 64) (by decide) a b bcast_S64_S1x64_1 bcast_S1x64_S100000x64_0_1 bcast_S_S100000x64

/-- The reference's result is the network of its arguments. -/
theorem result_eq (c : Dev nD) : res_main_v95 (F := Ideal) m c
    = gcn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [res_eq_host, dot1_eq, hostBiasRelu_eq, dot2_eq, hostBiasRelu_eq]
  rfl

end Cert.ReferenceIdeal.RefValue

end
-- ==== Proof.lean ====
/-
  A two-layer graph convolution: the Pallas program against its jnp reference, on the extended reals.

  Both programs compute, per layer, `max (agg (H · W) + b, 0)`: a dense product, an aggregation of the product's rows
  along the graph's edges (gather at the sources, scale by the symmetric degree norm, scatter-add at the
  destinations, with one loop edge per node), a bias and a clamp at zero. The kernel program does the dense product
  and the bias-and-clamp of each layer in pallas_calls over ten blocks of 10000 rows, and the edge side on the host;
  the reference does everything on the host. The edge side is the same line of host operations in both programs and
  is carried through the proof as named functions that are never opened (Proof/GcnSpec.lean). What is compared:
  · a product computed block of rows by block of rows is the whole product, since an entry depends on the left
    operand through its own row only (Proof/Mat0.lean, Proof/Mat2.lean), and the host's `dot_general` is the same sum
    over the contracted coordinate (Proof/RefValue.lean) — rounding the operands to bf16 is the identity at the ideal
    values, and no finiteness is needed: the two sides are the same sums of the same products, term by term;
  · the bias-and-clamp on a block of rows is the whole array's at those rows (Proof/Bias1.lean, Proof/Bias3.lean), and
    the host's broadcast form is the same function (Proof/LibBiasRelu.lean).
  The kernel program's run with its result named is Proof/KRun.lean; its result read back through the four regions
  and the host stretches between them is Proof/KValue.lean (the stretches: Proof/KHost.lean).
  The ideal pass rewrote nothing, so `preserves` is trivial; the frames are the generated ones, the reference's its
  generated run with the result dropped. The precondition is never opened.
-/
import proofs.«126585_j22900765623076_1_alg».proof.Defs
import proofs.«126585_j22900765623076_1_alg».proof.Proof.Gen.Kernel
import proofs.«126585_j22900765623076_1_alg».proof.Proof.Gen.Kernel.Skeleton
import proofs.«126585_j22900765623076_1_alg».proof.Proof.Gen.Kernel.Launch
import proofs.«126585_j22900765623076_1_alg».proof.Proof.Gen.Kernel.Points
import proofs.«126585_j22900765623076_1_alg».proof.Proof.Gen.Kernel.Frame
import proofs.«126585_j22900765623076_1_alg».proof.Proof.Gen.KernelIdeal
import proofs.«126585_j22900765623076_1_alg».proof.Proof.Gen.KernelIdeal.Skeleton
import proofs.«126585_j22900765623076_1_alg».proof.Proof.Gen.KernelIdeal.Launch
import proofs.«126585_j22900765623076_1_alg».proof.Proof.Gen.KernelIdeal.Points
import proofs.«126585_j22900765623076_1_alg».proof.Proof.Gen.KernelIdeal.Frame
import proofs.«126585_j22900765623076_1_alg».proof.Proof.Gen.ReferenceIdeal
import proofs.«126585_j22900765623076_1_alg».proof.Proof.Gen.ReferenceIdeal.Run
import proofs.«126585_j22900765623076_1_alg».proof.Proof.Gen.ReferenceIdeal.Read
import proofs.«126585_j22900765623076_1_alg».proof.Proof.Gen.Pre_finite_inputs
import proofs.«126585_j22900765623076_1_alg».proof.Proof.KRun
import proofs.«126585_j22900765623076_1_alg».proof.Proof.KValue
import proofs.«126585_j22900765623076_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the two-layer network of the (agreeing) argument arrays. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KValue.value m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result_eq m' c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
